-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x16 : Shape := ⟨2, ![2000000, 16]⟩
abbrev S2000000x3 : Shape := ⟨2, ![2000000, 3]⟩
abbrev S2000000x3x3 : Shape := ⟨3, ![2000000, 3, 3]⟩
abbrev S16x16 : Shape := ⟨2, ![16, 16]⟩
abbrev S16 : Shape := ⟨1, ![16]⟩
abbrev S1x2 : Shape := ⟨2, ![1, 2]⟩
abbrev S_ : Shape := ⟨0, ![]⟩

class Facts : Prop where
  bcast_S_S2000000x16 : S_.BroadcastsInDim S2000000x16 (![] : Fin 0 → Fin S2000000x16.rank)
  reducesTo_S2000000x16_S_d0_1 : S2000000x16.ReducesTo [0, 1] S_
  h_S_ : 0 < S_.numel
  bcast_S_S2000000x3 : S_.BroadcastsInDim S2000000x3 (![] : Fin 0 → Fin S2000000x3.rank)
  reducesTo_S2000000x3_S_d0_1 : S2000000x3.ReducesTo [0, 1] S_
  bcast_S_S2000000x3x3 : S_.BroadcastsInDim S2000000x3x3 (![] : Fin 0 → Fin S2000000x3x3.rank)
  reducesTo_S2000000x3x3_S_d0_1_2 : S2000000x3x3.ReducesTo [0, 1, 2] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16x16 .f32) (main_arg8 : FVec F S16 .f32) (main_v33 : IVec S_ 1) : IVec S_ 1 :=
  let main_v34 : FVec F S16x16 .f32 := Host.absf main_arg7
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg4 : FVec F S16 .f32) (main_arg5 : FVec F S16x16 .f32) (main_arg6 : FVec F S16 .f32) (main_arg7 : FVec F S16x16 .f32) (main_arg8 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg5
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_v33

def fn {F : FTy → Type} [FloatOps F] (main_arg0 : FVec F S2000000x16 .f32) (main_arg1 : FVec F S2000000x3 .f32) (main_arg2 : FVec F S2000000x3x3 .f32) (main_arg3 : FVec F S16x16 .f32) (main_arg4 : FVec F S16 .f32) (main_arg5 : FVec F S16x16 .f32) (main_arg6 : FVec F S16 .f32) (main_arg7 : FVec F S16x16 .f32) (main_arg8 : FVec F S16 .f32) (main_arg9 : IVec S1x2 32) : IVec S_ 1 :=
  let main_v0 : FVec F S2000000x16 .f32 := Host.absf main_arg0
  let main_cst : FVec F S_ .f32 := constant S_ .f32 0x7F800000#32
  let main_v1 : FVec F S2000000x16 .f32 := broadcastInDim S2000000x16 ![] bcast_S_S2000000x16 main_cst
  let main_v2 : IVec S2000000x16 1 := cmpf .olt main_v0 main_v1
  let main_c : IVec S_ 1 := constantI S_ 1 1#1
  let main_v3 : IVec S_ 1 := (fun x v => Host.reduce IntOp.andi x v reducesTo_S2000000x16_S_d0_1 h_S_) main_v2 main_c
  let main_v4 : FVec F S2000000x3 .f32 := Host.absf main_arg1
  let main_cst_0 : FVec F S_ .f32 := constant S_ .f32 0x7F800000#32
  let main_v5 : FVec F S2000000x3 .f32 := broadcastInDim S2000000x3 ![] bcast_S_S2000000x3 main_cst_0
  let main_v6 : IVec S2000000x3 1 := cmpf .olt main_v4 main_v5
  let main_c_1 : IVec S_ 1 := constantI S_ 1 1#1
  let main_v7 : IVec S_ 1 := (fun x v => Host.reduce IntOp.andi x v reducesTo_S2000000x3_S_d0_1 h_S_) main_v6 main_c_1
  let main_v8 : IVec S_ 1 := andi main_v3 main_v7
  let main_v9 : FVec F S2000000x3x3 .f32 := Host.absf main_arg2
  let main_cst_2 : FVec F S_ .f32 := constant S_ .f32 0x7F800000#32
  let main_v10 : FVec F S2000000x3x3 .f32 := broadcastInDim S2000000x3x3 ![] bcast_S_S2000000x3x3 main_cst_2
  let main_v11 : IVec S2000000x3x3 1 := cmpf .olt main_v9 main_v10
  let main_c_3 : IVec S_ 1 := constantI S_ 1 1#1
  let main_v12 : IVec S_ 1 := (fun x v => Host.reduce IntOp.andi x v reducesTo_S2000000x3x3_S_d0_1_2 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg4 main_arg5 main_arg6 main_arg7 main_arg8 main_v13 main_v16
-- ==== Kernel.lean ====
abbrev S2000000x16 : Shape := ⟨2, ![2000000, 16]⟩
abbrev S2000000x3 : Shape := ⟨2, ![2000000, 3]⟩
abbrev S2000000x3x3 : Shape := ⟨3, ![2000000, 3, 3]⟩
abbrev S16x16 : Shape := ⟨2, ![16, 16]⟩
abbrev S16 : Shape := ⟨1, ![16]⟩
abbrev S1x2 : Shape := ⟨2, ![1, 2]⟩
abbrev S1x16 : Shape := ⟨2, ![1, 16]⟩
abbrev S50000x16 : Shape := ⟨2, ![50000, 16]⟩

abbrev nBuf : Space → Nat
  | .hbm => 17
  | .vmem => 10
  | .smem => 0
  | _ => 0

abbrev bufTy : (tb : Table) → Fin (tcTables nBuf tb) → BufTy
  | .hbm, ⟨0, _⟩ => ⟨S2000000x16, .f32⟩
  | .hbm, ⟨1, _⟩ => ⟨S2000000x3, .f32⟩
  | .hbm, ⟨2, _⟩ => ⟨S2000000x3x3, .f32⟩
  | .hbm, ⟨3, _⟩ => ⟨S16x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S1x2, .i32⟩
  | .hbm, ⟨10, _⟩ => ⟨S16x16, .f32⟩
  | .hbm, ⟨11, _⟩ => ⟨S16x16, .f32⟩
  | .hbm, ⟨12, _⟩ => ⟨S16x16, .f32⟩
  | .hbm, ⟨13, _⟩ => ⟨S1x16, .f32⟩
  | .hbm, ⟨14, _⟩ => ⟨S1x16, .f32⟩
  | .hbm, ⟨15, _⟩ => ⟨S1x16, .f32⟩
  | .hbm, ⟨16, _⟩ => ⟨S2000000x16, .f32⟩
  | .local _ .vmem, ⟨0, _⟩ => ⟨S50000x16, .f32⟩
  | .local _ .vmem, ⟨1, _⟩ => ⟨S50000x16, .f32⟩
  | .local _ .vmem, ⟨2, _⟩ => ⟨S16x16, .f32⟩
  | .local _ .vmem, ⟨3, _⟩ => ⟨S1x16, .f32⟩
  | .local _ .vmem, ⟨4, _⟩ => ⟨S16x16, .f32⟩
  | .local _ .vmem, ⟨5, _⟩ => ⟨S1x16, .f32⟩
  | .local _ .vmem, ⟨6, _⟩ => ⟨S16x16, .f32⟩
  | .local _ .vmem, ⟨7, _⟩ => ⟨S1x16, .f32⟩
  | .local _ .vmem, ⟨8, _⟩ => ⟨S50000x16, .f32⟩
  | .local _ .vmem, ⟨9, _⟩ => ⟨S50000x16, .f32⟩
  | _, _ => ⟨S2000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S50000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S50000x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S16x16_S16x16_1_0 : S16x16.Transposes [1, 0] S16x16
  shapeCasts_S16_S1x16 : S16.ShapeCasts S1x16
  inb_S50000x16_S50000x16_0_0 : ∀ a, (![0, 0] : Fin 2 → Nat) a + S50000x16.size a ≤ S50000x16.size a
  h_S50000x16 : 0 < S50000x16.numel
  bitsLt_bf16_f32 : FTy.bits .bf16 < FTy.bits .f32
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S50000x16 : S1x16.Broadcasts S50000x16
  dot_S50000x16_S16x16_S50000x16_1_0_0_1_n_n_wf : DotDims.WF S50000x16 S16x16 S50000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S50000x16.size a ≤ S2000000x16.size a
  hwx0_0 : ∀ i : grid0.Coords, EltTy.bits .f32 = 32 ∨ (Rect.block (s := S2000000x16) S50000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x16.size a ≤ S16x16.size a
  hwx0_1 : ∀ i : grid0.Coords, EltTy.bits .f32 = 32 ∨ (Rect.block (s := S16x16) S16x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x16.size a ≤ S16x16.size a
  hwx0_5 : ∀ i : grid0.Coords, EltTy.bits .f32 = 32 ∨ (Rect.block (s := S16x16) S16x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S50000x16.size a ≤ S2000000x16.size a
  hwx0_7 : ∀ i : grid0.Coords, EltTy.bits .f32 = 32 ∨ (Rect.block (s := S2000000x16) S50000x16.size (cc0_transform_7 i) (hinb0_7 i)).WholeWords (EltTy.packing .f32)

variable [Facts₀]

def dot_S50000x16_S16x16_S50000x16_1_0_0_1_n_n : DotDims S50000x16 S16x16 S50000x16 where
  lhsContracting := [1]
  rhsContracting := [0]
  lhsNonContracting := [0]
  rhsNonContracting := [1]
  lhsBatch := []
  rhsBatch := []
  wf := dot_S50000x16_S16x16_S50000x16_1_0_0_1_n_n_wf

abbrev win0_0 : Pipeline.Window sig grid0 :=
  Pipeline.Window.ofSpec (Memref.whole main_arg0) S50000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S16x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S50000x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2000000x16 : Shape := ⟨2, ![2000000, 16]⟩
abbrev S2000000x3 : Shape := ⟨2, ![2000000, 3]⟩
abbrev S2000000x3x3 : Shape := ⟨3, ![2000000, 3, 3]⟩
abbrev S16x16 : Shape := ⟨2, ![16, 16]⟩
abbrev S16 : Shape := ⟨1, ![16]⟩
abbrev S1x2 : Shape := ⟨2, ![1, 2]⟩
abbrev S1x16 : Shape := ⟨2, ![1, 16]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2000000x16, .f32⟩
  | .hbm, ⟨1, _⟩ => ⟨S2000000x3, .f32⟩
  | .hbm, ⟨2, _⟩ => ⟨S2000000x3x3, .f32⟩
  | .hbm, ⟨3, _⟩ => ⟨S16x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x16, .f32⟩
  | .hbm, ⟨8, _⟩ => ⟨S16, .f32⟩
  | .hbm, ⟨9, _⟩ => ⟨S1x2, .i32⟩
  | .hbm, ⟨10, _⟩ => ⟨S16x16, .f32⟩
  | .hbm, ⟨11, _⟩ => ⟨S2000000x16, .f32⟩
  | .hbm, ⟨12, _⟩ => ⟨S1x16, .f32⟩
  | .hbm, ⟨13, _⟩ => ⟨S2000000x16, .f32⟩
  | .hbm, ⟨14, _⟩ => ⟨S2000000x16, .f32⟩
  | .hbm, ⟨15, _⟩ => ⟨S16x16, .f32⟩
  | .hbm, ⟨16, _⟩ => ⟨S2000000x16, .f32⟩
  | .hbm, ⟨17, _⟩ => ⟨S1x16, .f32⟩
  | .hbm, ⟨18, _⟩ => ⟨S2000000x16, .f32⟩
  | .hbm, ⟨19, _⟩ => ⟨S2000000x16, .f32⟩
  | .hbm, ⟨20, _⟩ => ⟨S_, .f32⟩
  | .hbm, ⟨21, _⟩ => ⟨S2000000x16, .f32⟩
  | .hbm, ⟨22, _⟩ => ⟨S2000000x16, .f32⟩
  | .hbm, ⟨23, _⟩ => ⟨S16x16, .f32⟩
  | .hbm, ⟨24, _⟩ => ⟨S2000000x16, .f32⟩
  | .hbm, ⟨25, _⟩ => ⟨S1x16, .f32⟩
  | .hbm, ⟨26, _⟩ => ⟨S2000000x16, .f32⟩
  | .hbm, ⟨27, _⟩ => ⟨S2000000x16, .f32⟩
  | _, _ => ⟨S2000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_cst : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  transposes_S16x16_S16x16_1_0 : S16x16.Transposes [1, 0] S16x16
  bcast_S16_S1x16_1 : S16.BroadcastsInDim S1x16 (![1] : Fin 1 → Fin S1x16.rank)
  bcast_S1x16_S2000000x16_0_1 : S1x16.BroadcastsInDim S2000000x16 (![0, 1] : Fin 2 → Fin S2000000x16.rank)
  bcast_S_S2000000x16 : S_.BroadcastsInDim S2000000x16 (![] : Fin 0 → Fin S2000000x16.rank)
  dot_S2000000x16_S16x16_S2000000x16_1_0_0_1_n_n_wf : DotDims.WF S2000000x16 S16x16 S2000000x16 [1] [0] [0] [1] [] []

variable [Facts₀]

def dot_S2000000x16_S16x16_S2000000x16_1_0_0_1_n_n : DotDims S2000000x16 S16x16 S2000000x16 where
  lhsContracting := [1]
  rhsContracting := [0]
  lhsNonContracting := [0]
  rhsNonContracting := [1]
  lhsBatch := []
  rhsBatch := []
  wf := dot_S2000000x16_S16x16_S2000000x16_1_0_0_1_n_n_wf

class Facts : Prop extends Facts₀ where

variable [Facts]
-- ==== Proof.Mlp.lean ====
/-
  The function both programs compute, stated once over the extended reals and free of either program.

  A point's feature row `x ∈ EReal^16` goes through three linear layers with a clamp at zero after the second:
    h₁ = Wt · x + bt,   h₂ = max(Wa · h₁ + ba, 0),   out = Wb · h₂ + bb,
  where a weight matrix acts by ROWS, `(W · h) j = Σₖ h k · W (j, k)` (the matrices are stored
  [out_channel, in_channel]). The 2,000,000 rows are independent of one another. The zero of the clamp is kept as the
  word both programs print for it; nothing here evaluates it.
-/
import Idealize.ShloMosaic.PureOps.Ideal
import Idealize.ShloMosaic.Lib.ValueIdx

noncomputable section

namespace Cert.Mlp

open Idealize.ShloMosaic Idealize.ShloMosaic.ValueIdx

/-- One linear layer on a row of 16 numbers: output channel `j` is the inner product of the row with row `j` of the
    weight matrix, plus bias `j`. -/
def affine (W : (⟨2, ![16, 16]⟩ : Shape).Idx → EReal) (b : (⟨1, ![16]⟩ : Shape).Idx → EReal) (h : Fin 16 → EReal)
    (j : Fin 16) : EReal :=
  (∑ k : Fin 16, h k * W (ix2 j k)) + b (ix1 j)

/-- The clamp at zero, the zero being the f32 word `0x00000000`. -/
def clamp (x : EReal) : EReal := max x (Ideal.ofBits .f32 0x00000000#32)

/-- The three layers on one row. -/
def mlpRow (Wt : (⟨2, ![16, 16]⟩ : Shape).Idx → EReal) (bt : (⟨1, ![16]⟩ : Shape).Idx → EReal)
    (Wa : (⟨2, ![16, 16]⟩ : Shape).Idx → EReal) (ba : (⟨1, ![16]⟩ : Shape).Idx → EReal)
    (Wb : (⟨2, ![16, 16]⟩ : Shape).Idx → EReal) (bb : (⟨1, ![16]⟩ : Shape).Idx → EReal)
    (x : Fin 16 → EReal) : Fin 16 → EReal :=
  affine Wb bb fun k => clamp (affine Wa ba (affine Wt bt x) k)

/-- Entry `(p, q)` of the result: channel `q` of the three layers applied to row `p` of the features. -/
def mlpAt (Wt : (⟨2, ![16, 16]⟩ : Shape).Idx → EReal) (bt : (⟨1, ![16]⟩ : Shape).Idx → EReal)
    (Wa : (⟨2, ![16, 16]⟩ : Shape).Idx → EReal) (ba : (⟨1, ![16]⟩ : Shape).Idx → EReal)
    (Wb : (⟨2, ![16, 16]⟩ : Shape).Idx → EReal) (bb : (⟨1, ![16]⟩ : Shape).Idx → EReal)
    (X : (⟨2, ![2000000, 16]⟩ : Shape).Idx → EReal) (p : Fin 2000000) (q : Fin 16) : EReal :=
  mlpRow Wt bt Wa ba Wb bb (fun k => X (ix2 p k)) q

/-- The whole result array. -/
def mlp (Wt : (⟨2, ![16, 16]⟩ : Shape).Idx → EReal) (bt : (⟨1, ![16]⟩ : Shape).Idx → EReal)
    (Wa : (⟨2, ![16, 16]⟩ : Shape).Idx → EReal) (ba : (⟨1, ![16]⟩ : Shape).Idx → EReal)
    (Wb : (⟨2, ![16, 16]⟩ : Shape).Idx → EReal) (bb : (⟨1, ![16]⟩ : Shape).Idx → EReal)
    (X : (⟨2, ![2000000, 16]⟩ : Shape).Idx → EReal) : (⟨2, ![2000000, 16]⟩ : Shape).Idx → EReal :=
  fun i => mlpAt Wt bt Wa ba Wb bb X (i 0) (i 1)

theorem mlp_ix2 (Wt : (⟨2, ![16, 16]⟩ : Shape).Idx → EReal) (bt : (⟨1, ![16]⟩ : Shape).Idx → EReal)
    (Wa : (⟨2, ![16, 16]⟩ : Shape).Idx → EReal) (ba : (⟨1, ![16]⟩ : Shape).Idx → EReal)
    (Wb : (⟨2, ![16, 16]⟩ : Shape).Idx → EReal) (bb : (⟨1, ![16]⟩ : Shape).Idx → EReal)
    (X : (⟨2, ![2000000, 16]⟩ : Shape).Idx → EReal) (p : Fin 2000000) (q : Fin 16) :
    mlp Wt bt Wa ba Wb bb X (ix2 p q) = mlpAt Wt bt Wa ba Wb bb X p q := rfl

end Cert.Mlp

end
-- ==== Proof.RefIsMlp.lean ====
/-
  The reference program's result, read one operation at a time (the generated read lemmas), is the three-layer function
  of `Mlp.lean`.

  Each of its three layers is the same four host operations: transpose the weight matrix, contract the activations' axis 1
  with the transposed matrix's axis 0, broadcast the bias along the rows, add. At entry `(p, q)` the contraction reads
  `Σₖ h (p, k) · Wᵀ (k, q)`, and `Wᵀ (k, q) = W (q, k)`: row `q` of the stored matrix, as `Mlp.affine` has it. The
  second and third layers are the first layer's stage applied to other operands, so one lemma serves all three.
-/
import proofs.«159974_j61847529062863_1_alg».proof.Proof.Gen.ReferenceIdeal.Read
import proofs.«159974_j61847529062863_1_alg».proof.Proof.Mlp

noncomputable section

namespace Cert.ReferenceIdeal.RefValue

open Cert.ReferenceIdeal Cert.ReferenceIdeal.Read Cert.Mlp Idealize.ShloMosaic Idealize.ShloMosaic.ValueIdx

/-- The activations' entry the contraction reads at output `(p, q)` and step `k`: `(p, k)`. -/
theorem lidx_eq (p : Fin 2000000) (q k : Fin 16) : lidx_main_v1 (ix2 p q) k = ix2 p k :=
  funext fun a => by match a with | ⟨0, _⟩ => rfl | ⟨1, _⟩ => rfl

/-- The stored weight's entry it reads, through the transpose: `(q, k)`. -/
theorem widx_eq (p : Fin 2000000) (q k : Fin 16) : idx_main_v0 (ridx_main_v1 (ix2 p q) k) = ix2 q k :=
  funext fun a => by match a with | ⟨0, _⟩ => rfl | ⟨1, _⟩ => rfl

/-- The bias entry the two broadcasts read at output `(p, q)`: `q`. -/
theorem bidx_eq (p : Fin 2000000) (q : Fin 16) : idx_main_v2 (idx_main_v3 (ix2 p q)) = ix1 q :=
  funext fun a => by match a with | ⟨0, _⟩ => rfl

/-- ONE LAYER of the reference (transpose, contraction, bias broadcast, add) at entry `(p, q)` is `Mlp.affine` of row
    `p` of the activations, for any activations, weights and bias. -/
theorem layer (h : S2000000x16.Idx → EReal) (W : S16x16.Idx → EReal) (b : S16.Idx → EReal) (p : Fin 2000000) (q : Fin 16) :
    val_main_v4 (F := Ideal) h W b (ix2 p q) = affine W b (fun k => h (ix2 p k)) q := by
  rw [val_main_v4_apply, val_main_v1_apply, val_main_v3_apply, val_main_v2_apply]
  simp only [val_main_v0_apply, lidx_eq, widx_eq, bidx_eq]
  rfl

/-- The clamp's constant, splat over the array, reads the zero word everywhere. -/
theorem zero_apply (i : S2000000x16.Idx) : val_main_call0_v0 (F := Ideal) i = Ideal.ofBits .f32 0x00000000#32 := by
  rw [val_main_call0_v0_apply, val_main_call0_cst_apply]; rfl

/-- THE REFERENCE'S RESULT is `Mlp.mlp` of its arguments. -/
theorem result_eq (x0 : S2000000x16.Idx → EReal) (x3 : S16x16.Idx → EReal) (x4 : S16.Idx → EReal) (x5 : S16x16.Idx → EReal)
    (x6 : S16.Idx → EReal) (x7 : S16x16.Idx → EReal) (x8 : S16.Idx → EReal) :
    val_main_v15 (F := Ideal) x0 x3 x4 x5 x6 x7 x8 = mlp x3 x4 x5 x6 x7 x8 x0 := by
  funext i
  obtain ⟨p, q, rfl⟩ : ∃ (p : Fin 2000000) (q : Fin 16), i = ix2 p q := ⟨i 0, i 1, eq_ix2 i⟩
  rw [mlp_ix2]
  -- the third layer is the first layer's stage applied to the clamped second layer
  show val_main_v4 (F := Ideal) (val_main_v10 (F := Ideal) x0 x3 x4 x5 x6) x7 x8 (ix2 p q) = _
  rw [layer]
  unfold mlpAt mlpRow
  refine congrArg (fun f => affine x7 x8 f q) (funext fun k => ?_)
  rw [val_main_v10_apply, zero_apply]
  -- and the second layer is that stage applied to the first layer
  show max (val_main_v4 (F := Ideal) (val_main_v4 (F := Ideal) x0 x3 x4) x5 x6 (ix2 p k)) _ = _
  rw [layer]
  unfold clamp
  refine congrArg (fun f => max (affine x5 x6 f k) _) (funext fun k' => ?_)
  exact layer x0 x3 x4 p k'

end Cert.ReferenceIdeal.RefValue

end
-- ==== Proof.BlockMatmul.lean ====
/-
  The kernel's matrix product at one entry, at the ideal values.

  The body multiplies a [50000, 16] block of activations by a [16, 16] matrix, contracting the block's axis 1 with the
  matrix's axis 0, into an accumulator of zeros. Over the extended reals entry `(p, q)` of the product is
  `Σₖ a (p, k) · w (k, q)`: the accumulator's zero word is the number 0, and the one contraction axis is re-indexed by
  its coordinate `k : Fin 16`.
-/
import proofs.«159974_j61847529062863_1_alg».proof.Proof.Gen.KernelIdeal
import Idealize.ShloMosaic.PureOps.Ideal.Laws
import Idealize.ShloMosaic.Lib.ValueIdx

noncomputable section

namespace Cert.KernelIdeal.Block

open Cert.KernelIdeal Idealize.ShloMosaic Idealize.ShloMosaic.ValueIdx

local notation "D" => dot_S50000x16_S16x16_S50000x16_1_0_0_1_n_n

/-- The left operand is read on the output's row. -/
theorem lhs_row (i : S50000x16.Idx) (r : (D).contr.Idx) : ((D).lhsIdx i r 0).val = (i 0).val := by
  unfold DotDims.lhsIdx
  rw [dif_neg (show ¬(0 : Fin S50000x16.rank) ∈ (D).lhsBatch by decide),
    dif_pos (show (0 : Fin S50000x16.rank) ∈ (D).lhsNonContracting by decide)]
  rfl

/-- and at the contraction's step along its axis 1. -/
theorem lhs_step (i : S50000x16.Idx) (r : (D).contr.Idx) : ((D).lhsIdx i r 1).val = (r ⟨0, by decide⟩).val :=
  (D).lhsIdx_val_of_single rfl i r

/-- The right operand is read at the contraction's step along its axis 0 -/
theorem rhs_step (i : S50000x16.Idx) (r : (D).contr.Idx) : ((D).rhsIdx i r 0).val = (r ⟨0, by decide⟩).val :=
  (D).rhsIdx_val_of_single rfl i r

/-- and on the output's column. -/
theorem rhs_col (i : S50000x16.Idx) (r : (D).contr.Idx) : ((D).rhsIdx i r 1).val = (i 1).val := by
  unfold DotDims.rhsIdx
  rw [dif_neg (show ¬(1 : Fin S16x16.rank) ∈ (D).rhsBatch by decide),
    dif_pos (show (1 : Fin S16x16.rank) ∈ (D).rhsNonContracting by decide)]
  rfl

/-- THE PRODUCT AT AN ENTRY: into the zero accumulator, entry `(p, q)` is `Σₖ a (p, k) · w (k, q)`. -/
theorem matmul_entry {φ₁ φ₂ : FTy} (a : FVec Ideal S50000x16 φ₁) (w : FVec Ideal S16x16 φ₂) (p : Fin 50000) (q : Fin 16) :
    matmul (D) none a w (constant (F := Ideal) S50000x16 .f32 0x00000000#32) (ix2 p q)
      = ∑ k : Fin 16, a (ix2 p k) * w (ix2 k q) := by
  simp only [matmul]
  rw [Ideal.matmul_constant_zero_apply, ← Equiv.sum_comp (contrEquiv1 (D) 16 rfl rfl).symm]
  refine Finset.sum_congr rfl fun k _ => ?_
  have hk := contrEquiv1_symm_val (D) 16 rfl rfl k
  have el : (D).lhsIdx (ix2 p q) ((contrEquiv1 (D) 16 rfl rfl).symm k) = ix2 p k := funext fun c => Fin.ext (by
    match c with
    | ⟨0, _⟩ => exact lhs_row _ _
    | ⟨1, _⟩ => exact (lhs_step _ _).trans hk)
  have er : (D).rhsIdx (ix2 p q) ((contrEquiv1 (D) 16 rfl rfl).symm k) = ix2 k q := funext fun c => Fin.ext (by
    match c with
    | ⟨0, _⟩ => exact (rhs_step _ _).trans hk
    | ⟨1, _⟩ => exact rhs_col _ _)
  rw [el, er]

end Cert.KernelIdeal.Block

end
-- ==== Proof.BlockPayload.lean ====
/-
  What the kernel body stores, read at one entry of the [50000, 16] block.

  The body holds the three weight matrices ALREADY TRANSPOSED ([in_channel, out_channel]: the host transposes them before the
  call) and each bias as a [1, 16] row. One layer of the body is: contract the activations' axis 1 with the matrix's axis 0
  into zeros, add the bias row broadcast down the 50,000 rows. At entry `(p, q)` that is
  `Σₖ h (p, k) · w (k, q) + b (0, q)` (`rowLayer`). The roundings to bf16 before each product are the identity at the ideal
  values, and the two same-shape casts are the identity. The clamp between the second and third layers is the entrywise
  maximum with the splat of the zero word.
-/
import proofs.«159974_j61847529062863_1_alg».proof.Proof.Gen.KernelIdeal.Skeleton
import proofs.«159974_j61847529062863_1_alg».proof.Proof.BlockMatmul
import proofs.«159974_j61847529062863_1_alg».proof.Proof.Mlp
import Idealize.ShloMosaic.Lib.Pipeline.Value
import Idealize.ShloMosaic.Lib.ValueLayout

noncomputable section

namespace Cert.KernelIdeal.Block

open Cert.KernelIdeal Cert.KernelIdeal.Gen Cert.Mlp Idealize.ShloMosaic Idealize.ShloMosaic.ValueIdx

/-- One layer as the body has its operands: the matrix [in_channel, out_channel], the bias a one-row matrix. -/
def rowLayer (w : S16x16.Idx → EReal) (b : S1x16.Idx → EReal) (h : Fin 16 → EReal) (j : Fin 16) : EReal :=
  (∑ k : Fin 16, h k * w (ix2 k j)) + b (ix2 (0 : Fin 1) j)

/-- ONE LAYER OF THE BODY at entry `(p, q)` is `rowLayer` of row `p` of the activations. -/
theorem layer_entry (a : FVec Ideal S50000x16 .f32) (w : Vec Ideal S16x16 .f32) (b : Vec Ideal S1x16 .f32)
    (p : Fin 50000) (q : Fin 16) :
    addf (matmul dot_S50000x16_S16x16_S50000x16_1_0_0_1_n_n none (truncf .bf16 a bitsLt_bf16_f32)
        (truncf .bf16 (shapeCast S16x16 w shapeCasts_S16x16_S16x16) bitsLt_bf16_f32)
        (constant (F := Ideal) S50000x16 .f32 0x00000000#32))
      (broadcastTo S50000x16 (shapeCast S1x16 b shapeCasts_S1x16_S1x16) broadcasts_S1x16_S50000x16) (ix2 p q)
      = rowLayer w b (fun k => a (ix2 p k)) q := by
  rw [addf_apply, matmul_entry, broadcastTo_1b_ab_apply, shapeCast_self, shapeCast_self]
  rfl

/-- THE STORED VALUE at entry `(p, q)`: the three layers, as the body has their operands, on row `p` of the feature block. -/
theorem payload_entry (v0 : Vec Ideal S50000x16 .f32) (v2 : Vec Ideal S16x16 .f32) (v6 : Vec Ideal S1x16 .f32)
    (v11 : Vec Ideal S16x16 .f32) (v15 : Vec Ideal S1x16 .f32) (v22 : Vec Ideal S16x16 .f32) (v26 : Vec Ideal S1x16 .f32)
    (p : Fin 50000) (q : Fin 16) :
    k0_pay1 (F := Ideal) v0 v2 v6 v11 v15 v22 v26 (ix2 p q)
      = rowLayer v22 v26 (fun k => clamp (rowLayer v11 v15 (rowLayer v2 v6 fun k' => v0 (ix2 p k')) k)) q := by
  unfold k0_pay1
  rw [layer_entry]
  refine congrArg (fun f => rowLayer v22 v26 f q) (funext fun k => ?_)
  rw [maximumf_apply, broadcast_apply, layer_entry]
  unfold clamp
  refine congrArg (fun f => max (rowLayer v11 v15 f k) _) (funext fun k' => ?_)
  exact layer_entry v0 v2 v6 p k'

end Cert.KernelIdeal.Block

end
-- ==== Proof.KernelIsMlp.lean ====
/-
  The kernel's result array is the three-layer function of `Mlp.lean` of its argument arrays.

  Before the call the host transposes each weight matrix and recasts each bias [16] as a row [1, 16]; so the body's matrix
  at `(k, j)` is the stored matrix at `(j, k)` and its bias row at `(0, j)` is the bias at `j`, which turns the body's
  layer (`rowLayer`) into `Mlp.affine`. The grid has 40 points; point `t` is given rows `50000·t … 50000·t + 49999` of the
  features and the whole of each of the six small arrays, and writes rows `50000·t …` of the result. Hence what point `t`
  writes back is block `t` of ONE function of the arguments, the 40 blocks cover the 2,000,000 rows (row `r` lies in block
  `r / 50000`), and the array after the run is that function.
-/
import proofs.«159974_j61847529062863_1_alg».proof.Proof.Gen.KernelIdeal.Value
import proofs.«159974_j61847529062863_1_alg».proof.Proof.BlockPayload
import Idealize.ShloMosaic.Lib.Pipeline.Value
import Idealize.ShloMosaic.Lib.StableHlo.Run
import Idealize.ShloMosaic.Lib.ValueLayout
import Idealize.ShloMosaic.Lib.Tactic

noncomputable section

namespace Cert.KernelIdeal.Whole

open Cert.KernelIdeal Cert.KernelIdeal.Gen Cert.KernelIdeal.Value Cert.KernelIdeal.Block Cert.Mlp
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The body's layer on the host-prepared operands is `Mlp.affine` -/

/-- A matrix that is the transpose of `W` and a one-row matrix that is `B` make the body's layer the layer of `Mlp.lean`. -/
theorem rowLayer_eq_affine (w : S16x16.Idx → EReal) (b : S1x16.Idx → EReal)
    (W : (⟨2, ![16, 16]⟩ : Shape).Idx → EReal) (B : (⟨1, ![16]⟩ : Shape).Idx → EReal)
    (hw : ∀ k j : Fin 16, w (ix2 k j) = W (ix2 j k)) (hb : ∀ j : Fin 16, b (ix2 (0 : Fin 1) j) = B (ix1 j))
    (h : Fin 16 → EReal) (j : Fin 16) : rowLayer w b h j = affine W B h j := by
  unfold rowLayer affine
  rw [hb]
  exact congrArg (· + B (ix1 j)) (Finset.sum_congr rfl fun k _ => by rw [hw])

/-! ## What the region finds in the six prepared arrays -/

theorem V_Wt (c : Dev nD) : (V m c main_v0 : S16x16.Idx → EReal)
    = transpose S16x16 [1, 0] (m ((c : Thread nD τ).loc main_arg3)) transposes_S16x16_S16x16_1_0 := by
  dsimp only [Gen.V, Gen.hostOps0]; after_results <;> rfl
theorem V_Wa (c : Dev nD) : (V m c main_v1 : S16x16.Idx → EReal)
    = transpose S16x16 [1, 0] (m ((c : Thread nD τ).loc main_arg5)) transposes_S16x16_S16x16_1_0 := by
  dsimp only [Gen.V, Gen.hostOps0]; after_results <;> rfl
theorem V_Wb (c : Dev nD) : (V m c main_v2 : S16x16.Idx → EReal)
    = transpose S16x16 [1, 0] (m ((c : Thread nD τ).loc main_arg7)) transposes_S16x16_S16x16_1_0 := by
  dsimp only [Gen.V, Gen.hostOps0]; after_results <;> rfl
theorem V_bt (c : Dev nD) : (V m c main_v3 : S1x16.Idx → EReal)
    = shapeCast S1x16 (m ((c : Thread nD τ).loc main_arg4)) shapeCasts_S16_S1x16 := by
  dsimp only [Gen.V, Gen.hostOps0]; after_results <;> rfl
theorem V_ba (c : Dev nD) : (V m c main_v4 : S1x16.Idx → EReal)
    = shapeCast S1x16 (m ((c : Thread nD τ).loc main_arg6)) shapeCasts_S16_S1x16 := by
  dsimp only [Gen.V, Gen.hostOps0]; after_results <;> rfl
theorem V_bb (c : Dev nD) : (V m c main_v5 : S1x16.Idx → EReal)
    = shapeCast S1x16 (m ((c : Thread nD τ).loc main_arg8)) shapeCasts_S16_S1x16 := by
  dsimp only [Gen.V, Gen.hostOps0]; after_results <;> rfl

/-! ## The blocks each point is given -/

/-- The printed index maps over the 40 points: the feature window and the result window sit on row block `t`, each of the
    six small windows on its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of point `t`'s feature block is row `50000·t + p` of the features. -/
theorem feat_block (c : Dev nD) (t : Fin cfg0.N) (p : Fin 50000) (k : Fin 16) (r : Fin 2000000)
    (hr : r.val = 50000 * t.val + p.val) :
    (iblk m c 0 t : Vec Ideal S50000x16 .f32) (ix2 p k)
      = (m ((c : Thread nD τ).loc main_arg0) : S2000000x16.Idx → EReal) (ix2 r k) := by
  obtain ⟨e0, e1, -⟩ := idx_facts t
  unfold iblk
  rw [View.read_apply]
  show V m c main_arg0 _ = _
  rw [V_main_arg0]
  refine congrArg (m ((c : Thread nD τ).loc main_arg0) : S2000000x16.Idx → EReal) (funext fun a => Fin.ext ?_)
  match a with
  | ⟨0, _⟩ => show win0_0.index t (0 : Fin 2) * 50000 + 1 * p.val = r.val; rw [e0, hr]; omega
  | ⟨1, _⟩ => show win0_0.index t (1 : Fin 2) * 16 + 1 * k.val = k.val; rw [e1]; omega

/-- The first matrix's block at `(k, j)` is the stored first matrix at `(j, k)`: the window's one block is the whole transposed array. -/
theorem wt_block (c : Dev nD) (t : Fin cfg0.N) (k j : Fin 16) :
    (iblk m c 1 t : Vec Ideal S16x16 .f32) (ix2 k j)
      = (m ((c : Thread nD τ).loc main_arg3) : S16x16.Idx → EReal) (ix2 j k) := by
  have e := idx_facts t
  unfold iblk
  rw [View.read_apply]
  show V m c main_v0 _ = _
  rw [V_Wt]
  refine (congrArg _ (funext fun a => Fin.ext ?_ : _ = ix2 k j)).trans (transpose_ix2_apply _ _ k j)
  match a with
  | ⟨0, _⟩ => show win0_1.index t (0 : Fin 2) * 16 + 1 * k.val = k.val; omega
  | ⟨1, _⟩ => show win0_1.index t (1 : Fin 2) * 16 + 1 * j.val = j.val; omega

/-- The first bias row's block at `(0, j)` is the stored first bias at `j`. -/
theorem bt_block (c : Dev nD) (t : Fin cfg0.N) (j : Fin 16) :
    (iblk m c 2 t : Vec Ideal S1x16 .f32) (ix2 (0 : Fin 1) j)
      = (m ((c : Thread nD τ).loc main_arg4) : S16.Idx → EReal) (ix1 j) := by
  have e := idx_facts t
  unfold iblk
  rw [View.read_apply]
  show V m c main_v3 _ = _
  rw [V_bt]
  refine (congrArg _ (funext fun a => Fin.ext ?_ : _ = ix2 (0 : Fin 1) j)).trans (shapeCast_a_1a_apply _ _ (0 : Fin 1) j)
  match a with
  | ⟨0, _⟩ => show win0_2.index t (0 : Fin 2) * 1 + 1 * 0 = 0; omega
  | ⟨1, _⟩ => show win0_2.index t (1 : Fin 2) * 16 + 1 * j.val = j.val; omega

/-- The second matrix's block at `(k, j)` is the stored second matrix at `(j, k)`. -/
theorem wa_block (c : Dev nD) (t : Fin cfg0.N) (k j : Fin 16) :
    (iblk m c 3 t : Vec Ideal S16x16 .f32) (ix2 k j)
      = (m ((c : Thread nD τ).loc main_arg5) : S16x16.Idx → EReal) (ix2 j k) := by
  have e := idx_facts t
  unfold iblk
  rw [View.read_apply]
  show V m c main_v1 _ = _
  rw [V_Wa]
  refine (congrArg _ (funext fun a => Fin.ext ?_ : _ = ix2 k j)).trans (transpose_ix2_apply _ _ k j)
  match a with
  | ⟨0, _⟩ => show win0_3.index t (0 : Fin 2) * 16 + 1 * k.val = k.val; omega
  | ⟨1, _⟩ => show win0_3.index t (1 : Fin 2) * 16 + 1 * j.val = j.val; omega

/-- The second bias row's block at `(0, j)` is the stored second bias at `j`. -/
theorem ba_block (c : Dev nD) (t : Fin cfg0.N) (j : Fin 16) :
    (iblk m c 4 t : Vec Ideal S1x16 .f32) (ix2 (0 : Fin 1) j)
      = (m ((c : Thread nD τ).loc main_arg6) : S16.Idx → EReal) (ix1 j) := by
  have e := idx_facts t
  unfold iblk
  rw [View.read_apply]
  show V m c main_v4 _ = _
  rw [V_ba]
  refine (congrArg _ (funext fun a => Fin.ext ?_ : _ = ix2 (0 : Fin 1) j)).trans (shapeCast_a_1a_apply _ _ (0 : Fin 1) j)
  match a with
  | ⟨0, _⟩ => show win0_4.index t (0 : Fin 2) * 1 + 1 * 0 = 0; omega
  | ⟨1, _⟩ => show win0_4.index t (1 : Fin 2) * 16 + 1 * j.val = j.val; omega

/-- The third matrix's block at `(k, j)` is the stored third matrix at `(j, k)`. -/
theorem wb_block (c : Dev nD) (t : Fin cfg0.N) (k j : Fin 16) :
    (iblk m c 5 t : Vec Ideal S16x16 .f32) (ix2 k j)
      = (m ((c : Thread nD τ).loc main_arg7) : S16x16.Idx → EReal) (ix2 j k) := by
  have e := idx_facts t
  unfold iblk
  rw [View.read_apply]
  show V m c main_v2 _ = _
  rw [V_Wb]
  refine (congrArg _ (funext fun a => Fin.ext ?_ : _ = ix2 k j)).trans (transpose_ix2_apply _ _ k j)
  match a with
  | ⟨0, _⟩ => show win0_5.index t (0 : Fin 2) * 16 + 1 * k.val = k.val; omega
  | ⟨1, _⟩ => show win0_5.index t (1 : Fin 2) * 16 + 1 * j.val = j.val; omega

/-- The third bias row's block at `(0, j)` is the stored third bias at `j`. -/
theorem bb_block (c : Dev nD) (t : Fin cfg0.N) (j : Fin 16) :
    (iblk m c 6 t : Vec Ideal S1x16 .f32) (ix2 (0 : Fin 1) j)
      = (m ((c : Thread nD τ).loc main_arg8) : S16.Idx → EReal) (ix1 j) := by
  have e := idx_facts t
  unfold iblk
  rw [View.read_apply]
  show V m c main_v5 _ = _
  rw [V_bb]
  refine (congrArg _ (funext fun a => Fin.ext ?_ : _ = ix2 (0 : Fin 1) j)).trans (shapeCast_a_1a_apply _ _ (0 : Fin 1) j)
  match a with
  | ⟨0, _⟩ => show win0_6.index t (0 : Fin 2) * 1 + 1 * 0 = 0; omega
  | ⟨1, _⟩ => show win0_6.index t (1 : Fin 2) * 16 + 1 * j.val = j.val; omega

/-! ## What a point writes back, the cover, the array after the run -/

theorem hz : (![0, 0] : Fin 2 → Nat) = fun _ => 0 := funext fun a => by fin_cases a <;> rfl

/-- The function the result array ends holding, of the argument arrays on core `c`. -/
abbrev result (c : Dev nD) : S2000000x16.Idx → EReal :=
  mlp (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg0))

/-- WHAT POINT `t` WRITES BACK is block `t` of `result`: at `(p, q)` of the block the body stores the three layers of row
    `p` of its feature block, which is row `50000·t + p` of the features, under the stored matrices and biases. -/
theorem flushed_eq (c : Dev nD) (t : Fin cfg0.N) :
    (dats m 0 c).flushed 7 t = ((cfg0.win 7).blk t).view.read (Elt Ideal) (result m c) := by
  rw [flushed7]
  unfold out0_7
  rw [View.canon_unit_zero hz]
  simp only [View.ld_unit_zero (S := S50000x16) hz, View.ld_unit_zero (S := S16x16) hz, View.ld_unit_zero (S := S1x16) hz]
  obtain ⟨-, -, -, -, -, -, -, -, -, -, -, -, -, -, e70, e71⟩ := idx_facts t
  funext y
  obtain ⟨p, q, rfl⟩ : ∃ (p : Fin 50000) (q : Fin 16), y = ix2 p q := ⟨y 0, y 1, eq_ix2 y⟩
  have ht : t.val < 40 := Nat.lt_of_lt_of_eq t.isLt (N_0 : cfg0.N = 40)
  have hr : 50000 * t.val + p.val < 2000000 := by have := p.isLt; omega
  show k0_pay1 (F := Ideal) (iblk m c 0 t) (iblk m c 1 t) (iblk m c 2 t) (iblk m c 3 t) (iblk m c 4 t) (iblk m c 5 t) (iblk m c 6 t) (ix2 p q)
    = result m c (((cfg0.win 7).blk t).view.emb (ix2 p q))
  have hemb : ((cfg0.win 7).blk t).view.emb (ix2 p q) = (ix2 (⟨50000 * t.val + p.val, hr⟩ : Fin 2000000) q : S2000000x16.Idx) := by
    funext a; apply Fin.ext
    match a with
    | ⟨0, _⟩ => show win0_7.index t (0 : Fin 2) * 50000 + 1 * p.val = 50000 * t.val + p.val; rw [e70]; omega
    | ⟨1, _⟩ => show win0_7.index t (1 : Fin 2) * 16 + 1 * q.val = q.val; rw [e71]; omega
  rw [hemb]
  refine (payload_entry _ _ _ _ _ _ _ p q).trans ?_
  show _ = mlpAt _ _ _ _ _ _ _ (⟨50000 * t.val + p.val, hr⟩ : Fin 2000000) q
  unfold mlpAt mlpRow
  rw [rowLayer_eq_affine _ _ _ _ (wb_block m c t) (bb_block m c t)]
  refine congrArg (fun f => affine _ _ f q) (funext fun k => congrArg clamp ?_)
  rw [rowLayer_eq_affine _ _ _ _ (wa_block m c t) (ba_block m c t)]
  refine congrArg (fun f => affine _ _ f k) (funext fun k' => ?_)
  rw [rowLayer_eq_affine _ _ _ _ (wt_block m c t) (bt_block m c t)]
  exact congrArg (fun f => affine _ _ f k') (funext fun k'' => feat_block m c t p k'' _ rfl)

/-- An index of the result array is in point `t`'s block iff each coordinate is in the block's range on its axis. -/
theorem mem_blk (t : Fin cfg0.N) (i : S2000000x16.Idx) :
    i ∈ ((cfg0.win 7).blk t).view.set ↔ ∀ a : Fin 2, win0_7.index t a * S50000x16.size a ≤ (i a).val
      ∧ (i a).val < win0_7.index t a * S50000x16.size a + S50000x16.size a := by
  show i ∈ ((View.whole main_v6).slice (win0_7.rect t)).set ↔ _
  rw [View.set_slice_whole, Rect.mem_set_unit]
  exact Iff.rfl

/-- THE COVER: row `r` of the result lies in the block of point `r / 50000`, and every point writes back. -/
theorem cover (i : S2000000x16.Idx) :
    ∃ t : Fin cfg0.N, (cfg0.win 7).flush t = true ∧ i ∈ ((cfg0.win 7).blk t).view.set := by
  have hi0 : (i 0).val < 2000000 := (i 0).isLt
  have hi1 : (i 1).val < 16 := (i 1).isLt
  have hN : cfg0.N = 40 := N_0
  refine ⟨⟨(i 0).val / 50000, by rw [hN]; omega⟩, flush0_7 _, ?_⟩
  rw [mem_blk]
  obtain ⟨-, -, -, -, -, -, -, -, -, -, -, -, -, -, e70, e71⟩ := idx_facts ⟨(i 0).val / 50000, by rw [hN]; omega⟩
  intro a
  match a with
  | ⟨0, _⟩ =>
    show win0_7.index _ (0 : Fin 2) * 50000 ≤ (i 0).val ∧ (i 0).val < win0_7.index _ (0 : Fin 2) * 50000 + 50000
    rw [e70]; show (i 0).val / 50000 * 50000 ≤ (i 0).val ∧ (i 0).val < (i 0).val / 50000 * 50000 + 50000; omega
  | ⟨1, _⟩ =>
    show win0_7.index _ (1 : Fin 2) * 16 ≤ (i 1).val ∧ (i 1).val < win0_7.index _ (1 : Fin 2) * 16 + 16
    rw [e71]; omega

/-- THE ARRAY AFTER THE RUN is `result`. -/
theorem final (c : Dev nD) : (dats m 0 c).arrAt 7 cfg0.N = result m c :=
  (dats m 0 c).arrAt_eq_of_cover 7 (result m c) (fun t _ => flushed_eq m c t) cover

/-- The kernel's run, read: the result array at the three-layer function of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (run_blocks m ρ)

end Cert.KernelIdeal.Whole

end
-- ==== Proof.lean ====
/-
  The claim for a three-layer per-point network on 2,000,000 points with 16 channels.

  Both programs send each feature row `x` through
    h₁ = Wt · x + bt,   h₂ = max(Wa · h₁ + ba, 0),   out = Wb · h₂ + bb,   (W · h) j = Σₖ h k · W (j, k),
  and neither reads `points`, `nuv` or `ranges`. The kernel has the host transpose the three matrices and recast the
  three biases as rows, then runs 40 grid points, each on a block of 50,000 rows, rounding the operands of each product
  to bf16; the reference transposes each matrix where it uses it and works on the whole array. Over the extended reals a
  change of float format is the identity and a product into zeros is the plain sum, so both results are the one function
  `Mlp.mlp` of the arguments (`Mlp.lean`): the reference by its operations read at an entry (`RefIsMlp.lean`), the kernel
  by the stored value of its body at an entry (`BlockMatmul.lean`, `BlockPayload.lean`) and the 40 blocks covering the
  array (`KernelIsMlp.lean`). The same sum, in the same order, with the same operands stands on both sides: no law of
  arithmetic is used, so the finiteness of the inputs is never opened. The idealization rewrote nothing, so `preserves` is
  `True`; the three frames are the generated ones (the reference's is its generated run with the result dropped).
-/
import proofs.«159974_j61847529062863_1_alg».proof.Defs
import proofs.«159974_j61847529062863_1_alg».proof.Proof.Gen.Kernel
import proofs.«159974_j61847529062863_1_alg».proof.Proof.Gen.Kernel.Skeleton
import proofs.«159974_j61847529062863_1_alg».proof.Proof.Gen.Kernel.Launch
import proofs.«159974_j61847529062863_1_alg».proof.Proof.Gen.Kernel.Points
import proofs.«159974_j61847529062863_1_alg».proof.Proof.Gen.Kernel.Frame
import proofs.«159974_j61847529062863_1_alg».proof.Proof.Gen.KernelIdeal
import proofs.«159974_j61847529062863_1_alg».proof.Proof.Gen.KernelIdeal.Skeleton
import proofs.«159974_j61847529062863_1_alg».proof.Proof.Gen.KernelIdeal.Launch
import proofs.«159974_j61847529062863_1_alg».proof.Proof.Gen.KernelIdeal.Points
import proofs.«159974_j61847529062863_1_alg».proof.Proof.Gen.KernelIdeal.Frame
import proofs.«159974_j61847529062863_1_alg».proof.Proof.Gen.ReferenceIdeal
import proofs.«159974_j61847529062863_1_alg».proof.Proof.Gen.Pre_finite_inputs
import proofs.«159974_j61847529062863_1_alg».proof.Proof.Gen.KernelIdeal.Value
import proofs.«159974_j61847529062863_1_alg».proof.Proof.Gen.ReferenceIdeal.Run
import proofs.«159974_j61847529062863_1_alg».proof.Proof.Gen.ReferenceIdeal.Read
import proofs.«159974_j61847529062863_1_alg».proof.Proof.RefIsMlp
import proofs.«159974_j61847529062863_1_alg».proof.Proof.KernelIsMlp
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the arguments both programs end with the result array at `Mlp.mlp` of the six parameter
    arrays and the features: the kernel by `Whole.run`, the reference by its generated run and `RefValue.result_eq`. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, -, -, h3, h4, h5, h6, h7, h8, -⟩ := hagree c
  rw [Cert.ReferenceIdeal.Read.val_main_v15_eq, Cert.ReferenceIdeal.RefValue.result_eq, h0, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
